-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x10000 .f32) (main_arg1 : FVec F S10000x128 .f32) (main_arg2 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.K.Setup.lean ====
/-
  The pipelined product `A · (X · W)`, program `Kernel`: what the proofs about its one region share.
  The region has 25 grid points. Windows 0 and 1 are `X` and `W`, whole, fetched once; windows 2 and 3 are
  the two 200-row halves of the point's 400 rows of `A` — two windows on ONE array —; window 4 is the
  point's 400 rows of the result. The scratch buffer keeps `X · W` from the first point on.
  Here: the arrays' contents when the region is entered, @main as the region alone, each window's block
  read off its array, that an input's staging buffer holds its block at every point, the condition of
  the body's one conditional in closed form (it holds at the first point only), and names for the staging memrefs.
-/
import proofs.«127652_g52682068853352_cont_sun_m_837_9_alg».proof.Proof.Gen.Kernel.Launch
import proofs.«127652_g52682068853352_cont_sun_m_837_9_alg».proof.Proof.Gen.Kernel.Skeleton
import proofs.«127652_g52682068853352_cont_sun_m_837_9_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- The TensorCore's buffers when the region is entered: as launched (no host operation precedes the region). -/
abbrev V (c : Dev nD) (b : Ref sig .tc) : Buf (Elt F) ((c : Thread nD τ).loc b) := m ((c : Thread nD τ).loc b)

/-- @main reduces to the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data over the entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's conditional -/

/-- The condition under which the body forms `X · W`: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is idle at any point. -/
theorem liveAt0 : ∀ (w : Fin 5) (t : Fin cfg0.N), cfg0.idle w (grid0.coords t) = false := fun _ _ => rfl

/-! ## The staging memrefs at a point -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
/-- The scratch buffer that keeps `X · W`, as the memref the body is passed. -/
abbrev scM0_0 : Memref sig .tc .vmem S10000x128 .bf16 := Memref.whole cc0_scratch0
/-- One staging buffer of the result's window, through which its contents are stated (the choice does not matter). -/
abbrev VO0_4 : View sig .tc .vmem S400x128 .f32 := (Memref.whole cc0_stg4_0 : Memref sig .tc .vmem S400x128 .f32).view
/-- The scratch as a view. -/
abbrev VS0_0 : View sig .tc .vmem S10000x128 .bf16 := scM0_0.view

/-- The core's scoped buffers that are no staging buffer: the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.K.RunFirst.lean ====
/-
  Program `Kernel`, the body at the FIRST grid point: the conditional is taken, so the body stores `X · W`
  (rounded to bf16) into the scratch, then the two halves of the result block, each a product of a half of
  the point's rows of `A` with the scratch just stored. The run is symbolic, on any whole staging
  memrefs; what each written buffer ends with is found by the run as a list of stored pieces.
-/
import proofs.«127652_g52682068853352_cont_sun_m_837_9_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: from the four input buffers at their contents, the result's buffer and the scratch at
    anything, the body runs to the inputs as they were, the result's buffer with its pieces `L4` written and the
    scratch with its pieces `LS0` written. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) :
    Σ' (L4 : List (View.Piece (Elt F) S400x128 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.K.RunLater.lean ====
/-
  Program `Kernel`, the body at a LATER grid point: the conditional is not taken; the body reads the
  scratch (which holds `X · W` since the first point) and stores the two halves of the result block. The
  scratch is handed back as it was found.
-/
import proofs.«127652_g52682068853352_cont_sun_m_837_9_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later point: from the four input buffers and the scratch at their contents and the result's buffer at
    anything, the body runs to the inputs and the scratch as they were and the result's buffer with its pieces
    `L4` written. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs0) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.Kernel.Hand

end
-- ==== Proof.K.Frame.lean ====
/-
  Program `Kernel`: the run of its one region, and with it the frame.
  What the result's staging buffer holds after the body at each point (the two stored halves, read back), what
  the scratch holds from the first point on (`X · W` as stored there), the proof data of the pipeline, the body
  obligation at every point, how the array `A` — handed to the region through TWO windows — is dealt between
  them (each window holds half of the share; an input is only read), and the launch.
-/
import proofs.«127652_g52682068853352_cont_sun_m_837_9_alg».proof.Proof.K.RunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave -/

/-- At the first point the two stored halves tile the result's block. -/
theorem cover0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) (y : S400x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S200x128.size (by sl_kernel_rfl) y

/-- What the first point leaves in the result's staging buffer: its pieces read back. -/
def out0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) : Vec F S400x128 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The one store into the scratch covers it. -/
theorem scover0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

/-- What the first point leaves in the scratch. -/
def sout0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) : Vec F S10000x128 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- At a later point the two stored halves tile the result's block. -/
theorem cover0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) (y : S400x128.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S200x128.size (by sl_kernel_rfl) y

/-- What a later point leaves in the result's staging buffer. -/
def out0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) : Vec F S400x128 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## Point by point -/

theorem cfg0_N : cfg0.N = 25 := N_0

/-- The first grid point. -/
def t0 : Fin cfg0.N := ⟨0, by rw [cfg0_N]; decide⟩

/-- The scratch from the first point on: `X · W` as the first point stored it. -/
def xw (c : Dev nD) : Vec F S10000x128 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _) ((hcond0_0 t0).mpr (Nat.zero_mod _)) (iblk m c 0 t0) (iblk m c 1 t0) (iblk m c 2 t0) (iblk m c 3 t0)

/-- The result's staging buffer after the body at point `t`. -/
def out4 (c : Dev nD) (t : Fin cfg0.N) : Vec F S400x128 .f32 :=
  if h : t.val % 25 = 0 then
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (iblk m c 0 t) (iblk m c 1 t) (iblk m c 2 t) (iblk m c 3 t)
  else
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (iblk m c 0 t) (iblk m c 1 t) (iblk m c 2 t) (iblk m c 3 t) (xw m c)

/-- The region's invariant before position `n`: before the first point the scratch at anything, afterwards at `X · W`. -/
def PhiS (c : Dev nD) : ℕ → sProp 𝕄
  | 0 => iprop(∃ d, owns (c : Thread nD τ) scM0_0 fullShare d)
  | _ + 1 => owns (c : Thread nD τ) scM0_0 fullShare (xw m c)

/-- The proof data: the arrays as the region finds them; after the body each input's buffer at its block and the
    result's at `out4`; the invariant `PhiS`; nothing owed. The two windows on `A` hold half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; at the first point the scratch is at anything and
    the run of that point leaves `X · W` in it; at a later point the scratch holds `X · W` and is handed back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = owns (c : Thread nD τ) scM0_0 fullShare (xw m c) from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  have hN : t.val < 25 := lt_of_lt_of_eq t.isLt cfg0_N
  by_cases h0 : t.val % 25 = 0
  · have hz : t.val = 0 := by omega
    obtain rfl : t = t0 := Fin.ext hz
    rw [show (dats m 0 c).Φ (t0 : Fin cfg0.N).castSucc = iprop(∃ d, owns (c : Thread nD τ) scM0_0 fullShare d) from rfl]
    unfold out4; rw [dif_pos h0]
    unfold out0_A_4 xw sout0_A_0; (try dsimp only)
    iintro ⟨HS0, Ho, ⟨%d0, H0⟩, ⟨%d1, H1⟩, ⟨%d2, H2⟩, ⟨%d3, H3⟩, ⟨%d4, H4⟩⟩
    iapply ((kernelRun0_A c (grid0.coords t0) _ _ _ _ _ _ _ _ _ _ _ _ ((hcond0_0 t0).mpr h0) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · have hz : t.val ≠ 0 := fun h => h0 (by rw [h])
    rw [show (dats m 0 c).Φ t.castSucc = owns (c : Thread nD τ) scM0_0 fullShare (xw m c) from by
      obtain ⟨n, hn⟩ := t; cases n with
      | zero => exact absurd rfl hz
      | succ n => rfl]
    unfold out4; rw [dif_neg h0]
    unfold out0_B_4; (try dsimp only)
    iintro ⟨HS0, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t) (xw m c)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0]; · iexact HS0
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt among the windows -/

/-- The four buffers behind the windows' arrays, whole at their entry contents, are the five windows' arrays at their
    shares: `A`'s full share splits into the halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_arg2) ↦{fullShare} V m c main_arg2)
          ∗ (((c : Thread nD τ).loc main_arg0) ↦{fullShare} V m c main_arg0) ∗ (((c : Thread nD τ).loc main_v0) ↦{fullShare} V m c main_v0)) := by
    unfold Pipeline.arrBufs
    rw [show Finset.univ.image (Pipeline.arrRef spec0) = insert main_arg1 (insert main_arg2 (insert main_arg0 {main_v0})) from by decide,
      bigSep_insert (by decide), bigSep_insert (by decide), bigSep_insert (by decide), bigSep_singleton]
    rfl
  have ea : (dats m 0 c).arrays ((dats m 0 c).arrAt · 0)
      = bigSep Finset.univ fun w : Fin 5 => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [e, ea, bigSep_W0]
  rw [show (dats m 0 c).share 0 = fullShare from rfl, show (dats m 0 c).share 1 = fullShare from rfl,
    show (dats m 0 c).share 2 = fullShare.left from rfl, show (dats m 0 c).share 3 = fullShare.right from rfl,
    show (dats m 0 c).share 4 = fullShare from rfl]
  iintro ⟨H1, H2, H0, Hv⟩
  ihave H0 := (pointsTo_share (PosShare.mem_left_op_right fullShare)).1 $$ H0
  icases H0 with ⟨H0l, H0r⟩
  isplitl [H1]; · iexact H1
  isplitl [H2]; · iexact H2
  isplitl [H0l]; · iexact H0l
  isplitl [H0r]; · iexact H0r
  iexact Hv

/-! ## The run and the frame -/

set_option backward.isDefEq.respectTransparency.types false in
/-- Every weakly fair execution of @main terminates, and in every final state each window's array holds what the
    library computes from the proof data: an input its entry contents, the result its blocks as written back. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest_scratch, show (dats m 0 c).Φ 0 = iprop(∃ d, owns (c : Thread nD τ) scM0_0 fullShare d) from rfl]
      iintro ⟨-, H⟩; iexact H)
    (hout := fun c => by
      rw [scopedRest_scratch]
      rw [show (dats m 0 c).Φ (Fin.last cfg0.N) = owns (c : Thread nD τ) scM0_0 fullShare (xw m c) from rfl]
      iintro H; isplitr; · iempintro
      iexists _; iexact H)
    (QY := fun _ _ => True)
    (hY := fun c s' => by
      iintro ⟨-, -, HSI⟩; imodintro
      isplitr; · ipureintro; trivial
      iexact HSI)
    (hQ := fun s h c w => (h c).1 w)

/-- The frame: every weakly fair execution of @main terminates, nothing faulting, and the three argument arrays end
    as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c) 2).trans (((dats m 0 c).arrAt_in 2 rfl _).trans (A_eq m c 2)),
      ((h c) 0).trans (((dats m 0 c).arrAt_in 0 rfl _).trans (A_eq m c 0)),
      ((h c) 1).trans (((dats m 0 c).arrAt_in 1 rfl _).trans (A_eq m c 1))⟩)
    (run_main m ρ)

end Cert.Kernel.Hand

end
-- ==== Proof.KI.Setup.lean ====
/-
  The pipelined product `A · (X · W)`, program `KernelIdeal`: what the proofs about its one region share.
  The region has 25 grid points. Windows 0 and 1 are `X` and `W`, whole, fetched once; windows 2 and 3 are
  the two 200-row halves of the point's 400 rows of `A` — two windows on ONE array —; window 4 is the
  point's 400 rows of the result. The scratch buffer keeps `X · W` from the first point on.
  Here: the arrays' contents when the region is entered, @main as the region alone, each window's block
  read off its array, that an input's staging buffer holds its block at every point, the condition of
  the body's one conditional in closed form (it holds at the first point only), and names for the staging memrefs.
-/
import proofs.«127652_g52682068853352_cont_sun_m_837_9_alg».proof.Proof.Gen.KernelIdeal.Launch
import proofs.«127652_g52682068853352_cont_sun_m_837_9_alg».proof.Proof.Gen.KernelIdeal.Skeleton
import proofs.«127652_g52682068853352_cont_sun_m_837_9_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- The TensorCore's buffers when the region is entered: as launched (no host operation precedes the region). -/
abbrev V (c : Dev nD) (b : Ref sig .tc) : Buf (Elt F) ((c : Thread nD τ).loc b) := m ((c : Thread nD τ).loc b)

/-- @main reduces to the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data over the entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's conditional -/

/-- The condition under which the body forms `X · W`: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is idle at any point. -/
theorem liveAt0 : ∀ (w : Fin 5) (t : Fin cfg0.N), cfg0.idle w (grid0.coords t) = false := fun _ _ => rfl

/-! ## The staging memrefs at a point -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
/-- The scratch buffer that keeps `X · W`, as the memref the body is passed. -/
abbrev scM0_0 : Memref sig .tc .vmem S10000x128 .bf16 := Memref.whole cc0_scratch0
/-- One staging buffer of the result's window, through which its contents are stated (the choice does not matter). -/
abbrev VO0_4 : View sig .tc .vmem S400x128 .f32 := (Memref.whole cc0_stg4_0 : Memref sig .tc .vmem S400x128 .f32).view
/-- The scratch as a view. -/
abbrev VS0_0 : View sig .tc .vmem S10000x128 .bf16 := scM0_0.view

/-- The core's scoped buffers that are no staging buffer: the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KI.RunFirst.lean ====
/-
  Program `KernelIdeal`, the body at the FIRST grid point: the conditional is taken, so the body stores `X · W`
  (rounded to bf16) into the scratch, then the two halves of the result block, each a product of a half of
  the point's rows of `A` with the scratch just stored. The run is symbolic, on any whole staging
  memrefs; what each written buffer ends with is found by the run as a list of stored pieces.
-/
import proofs.«127652_g52682068853352_cont_sun_m_837_9_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: from the four input buffers at their contents, the result's buffer and the scratch at
    anything, the body runs to the inputs as they were, the result's buffer with its pieces `L4` written and the
    scratch with its pieces `LS0` written. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) :
    Σ' (L4 : List (View.Piece (Elt F) S400x128 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI.RunLater.lean ====
/-
  Program `KernelIdeal`, the body at a LATER grid point: the conditional is not taken; the body reads the
  scratch (which holds `X · W` since the first point) and stores the two halves of the result block. The
  scratch is handed back as it was found.
-/
import proofs.«127652_g52682068853352_cont_sun_m_837_9_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later point: from the four input buffers and the scratch at their contents and the result's buffer at
    anything, the body runs to the inputs and the scratch as they were and the result's buffer with its pieces
    `L4` written. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs0) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Hand

end
-- ==== Proof.KI.Frame.lean ====
/-
  Program `KernelIdeal`: the run of its one region, and with it the frame.
  What the result's staging buffer holds after the body at each point (the two stored halves, read back), what
  the scratch holds from the first point on (`X · W` as stored there), the proof data of the pipeline, the body
  obligation at every point, how the array `A` — handed to the region through TWO windows — is dealt between
  them (each window holds half of the share; an input is only read), and the launch.
-/
import proofs.«127652_g52682068853352_cont_sun_m_837_9_alg».proof.Proof.KI.RunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave -/

/-- At the first point the two stored halves tile the result's block. -/
theorem cover0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) (y : S400x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S200x128.size (by sl_kernel_rfl) y

/-- What the first point leaves in the result's staging buffer: its pieces read back. -/
def out0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) : Vec F S400x128 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The one store into the scratch covers it. -/
theorem scover0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

/-- What the first point leaves in the scratch. -/
def sout0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) : Vec F S10000x128 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- At a later point the two stored halves tile the result's block. -/
theorem cover0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) (y : S400x128.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S200x128.size (by sl_kernel_rfl) y

/-- What a later point leaves in the result's staging buffer. -/
def out0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) : Vec F S400x128 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## Point by point -/

theorem cfg0_N : cfg0.N = 25 := N_0

/-- The first grid point. -/
def t0 : Fin cfg0.N := ⟨0, by rw [cfg0_N]; decide⟩

/-- The scratch from the first point on: `X · W` as the first point stored it. -/
def xw (c : Dev nD) : Vec F S10000x128 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _) ((hcond0_0 t0).mpr (Nat.zero_mod _)) (iblk m c 0 t0) (iblk m c 1 t0) (iblk m c 2 t0) (iblk m c 3 t0)

/-- The result's staging buffer after the body at point `t`. -/
def out4 (c : Dev nD) (t : Fin cfg0.N) : Vec F S400x128 .f32 :=
  if h : t.val % 25 = 0 then
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (iblk m c 0 t) (iblk m c 1 t) (iblk m c 2 t) (iblk m c 3 t)
  else
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (iblk m c 0 t) (iblk m c 1 t) (iblk m c 2 t) (iblk m c 3 t) (xw m c)

/-- The region's invariant before position `n`: before the first point the scratch at anything, afterwards at `X · W`. -/
def PhiS (c : Dev nD) : ℕ → sProp 𝕄
  | 0 => iprop(∃ d, owns (c : Thread nD τ) scM0_0 fullShare d)
  | _ + 1 => owns (c : Thread nD τ) scM0_0 fullShare (xw m c)

/-- The proof data: the arrays as the region finds them; after the body each input's buffer at its block and the
    result's at `out4`; the invariant `PhiS`; nothing owed. The two windows on `A` hold half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; at the first point the scratch is at anything and
    the run of that point leaves `X · W` in it; at a later point the scratch holds `X · W` and is handed back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = owns (c : Thread nD τ) scM0_0 fullShare (xw m c) from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  have hN : t.val < 25 := lt_of_lt_of_eq t.isLt cfg0_N
  by_cases h0 : t.val % 25 = 0
  · have hz : t.val = 0 := by omega
    obtain rfl : t = t0 := Fin.ext hz
    rw [show (dats m 0 c).Φ (t0 : Fin cfg0.N).castSucc = iprop(∃ d, owns (c : Thread nD τ) scM0_0 fullShare d) from rfl]
    unfold out4; rw [dif_pos h0]
    unfold out0_A_4 xw sout0_A_0; (try dsimp only)
    iintro ⟨HS0, Ho, ⟨%d0, H0⟩, ⟨%d1, H1⟩, ⟨%d2, H2⟩, ⟨%d3, H3⟩, ⟨%d4, H4⟩⟩
    iapply ((kernelRun0_A c (grid0.coords t0) _ _ _ _ _ _ _ _ _ _ _ _ ((hcond0_0 t0).mpr h0) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · have hz : t.val ≠ 0 := fun h => h0 (by rw [h])
    rw [show (dats m 0 c).Φ t.castSucc = owns (c : Thread nD τ) scM0_0 fullShare (xw m c) from by
      obtain ⟨n, hn⟩ := t; cases n with
      | zero => exact absurd rfl hz
      | succ n => rfl]
    unfold out4; rw [dif_neg h0]
    unfold out0_B_4; (try dsimp only)
    iintro ⟨HS0, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t) (xw m c)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0]; · iexact HS0
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt among the windows -/

/-- The four buffers behind the windows' arrays, whole at their entry contents, are the five windows' arrays at their
    shares: `A`'s full share splits into the halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_arg2) ↦{fullShare} V m c main_arg2)
          ∗ (((c : Thread nD τ).loc main_arg0) ↦{fullShare} V m c main_arg0) ∗ (((c : Thread nD τ).loc main_v0) ↦{fullShare} V m c main_v0)) := by
    unfold Pipeline.arrBufs
    rw [show Finset.univ.image (Pipeline.arrRef spec0) = insert main_arg1 (insert main_arg2 (insert main_arg0 {main_v0})) from by decide,
      bigSep_insert (by decide), bigSep_insert (by decide), bigSep_insert (by decide), bigSep_singleton]
    rfl
  have ea : (dats m 0 c).arrays ((dats m 0 c).arrAt · 0)
      = bigSep Finset.univ fun w : Fin 5 => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [e, ea, bigSep_W0]
  rw [show (dats m 0 c).share 0 = fullShare from rfl, show (dats m 0 c).share 1 = fullShare from rfl,
    show (dats m 0 c).share 2 = fullShare.left from rfl, show (dats m 0 c).share 3 = fullShare.right from rfl,
    show (dats m 0 c).share 4 = fullShare from rfl]
  iintro ⟨H1, H2, H0, Hv⟩
  ihave H0 := (pointsTo_share (PosShare.mem_left_op_right fullShare)).1 $$ H0
  icases H0 with ⟨H0l, H0r⟩
  isplitl [H1]; · iexact H1
  isplitl [H2]; · iexact H2
  isplitl [H0l]; · iexact H0l
  isplitl [H0r]; · iexact H0r
  iexact Hv

/-! ## The run and the frame -/

set_option backward.isDefEq.respectTransparency.types false in
/-- Every weakly fair execution of @main terminates, and in every final state each window's array holds what the
    library computes from the proof data: an input its entry contents, the result its blocks as written back. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest_scratch, show (dats m 0 c).Φ 0 = iprop(∃ d, owns (c : Thread nD τ) scM0_0 fullShare d) from rfl]
      iintro ⟨-, H⟩; iexact H)
    (hout := fun c => by
      rw [scopedRest_scratch]
      rw [show (dats m 0 c).Φ (Fin.last cfg0.N) = owns (c : Thread nD τ) scM0_0 fullShare (xw m c) from rfl]
      iintro H; isplitr; · iempintro
      iexists _; iexact H)
    (QY := fun _ _ => True)
    (hY := fun c s' => by
      iintro ⟨-, -, HSI⟩; imodintro
      isplitr; · ipureintro; trivial
      iexact HSI)
    (hQ := fun s h c w => (h c).1 w)

/-- The frame: every weakly fair execution of @main terminates, nothing faulting, and the three argument arrays end
    as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c) 2).trans (((dats m 0 c).arrAt_in 2 rfl _).trans (A_eq m c 2)),
      ((h c) 0).trans (((dats m 0 c).arrAt_in 0 rfl _).trans (A_eq m c 0)),
      ((h c) 1).trans (((dats m 0 c).arrAt_in 1 rfl _).trans (A_eq m c 1))⟩)
    (run_main m ρ)

end Cert.KernelIdeal.Hand

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.GcnLaw.lean ====
/-
  The layer `A · X · W` as one function of the three argument arrays, in the two groupings the two programs use,
  and the law that joins them.
  The kernel forms `X · W` once and multiplies each block of rows of `A` by it: entry (a, b) is the sum over k of
  A(a, k) · (sum over j of X(k, j) · W(j, b)). The reference multiplies `A · X` by `W`: entry (a, b) is the sum over j
  of (sum over k of A(a, k) · X(k, j)) · W(j, b). Both are the double sum of A(a, k) · X(k, j) · W(j, b); moving a factor
  across a sum is distributivity, which on the extended reals needs the entries to be real numbers — the
  precondition says they are.
-/
import Idealize.ShloMosaic.Lib.ValueIdx
import Idealize.ShloMosaic.PureOps.Ideal

noncomputable section

open scoped BigOperators

namespace Cert.Gcn

open Idealize.ShloMosaic Idealize.ShloMosaic.ValueIdx

abbrev SA : Shape := ⟨2, ![10000, 10000]⟩
abbrev SX : Shape := ⟨2, ![10000, 128]⟩
abbrev SW : Shape := ⟨2, ![128, 128]⟩

/-- Entry (k, b) of `X · W`. -/
def xwAt (X : SX.Idx → EReal) (W : SW.Idx → EReal) (k : Fin 10000) (b : Fin 128) : EReal :=
  ∑ j : Fin 128, X (ix2 k j) * W (ix2 j b)

/-- `A · (X · W)`, entry by entry: the kernel's grouping. -/
def layer (A : SA.Idx → EReal) (X : SX.Idx → EReal) (W : SW.Idx → EReal) : SX.Idx → EReal :=
  fun i => ∑ k : Fin 10000, A (ix2 (i 0) k) * xwAt X W k (i 1)

/-- `(A · X) · W`, entry by entry: the reference's grouping. -/
def layerRef (A : SA.Idx → EReal) (X : SX.Idx → EReal) (W : SW.Idx → EReal) : SX.Idx → EReal :=
  fun i => ∑ j : Fin 128, (∑ k : Fin 10000, A (ix2 (i 0) k) * X (ix2 k j)) * W (ix2 j (i 1))

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Regrouping a double sum of triple products, over any finite index types, for real entries. -/
theorem regroup {K J : Type} [Fintype K] [Fintype J] (a : K → ℝ) (x : K → J → ℝ) (w : J → ℝ) :
    (∑ k, (a k : EReal) * ∑ j, (x k j : EReal) * (w j : EReal))
      = ∑ j, (∑ k, (a k : EReal) * (x k j : EReal)) * (w j : EReal) := by
  simp only [← EReal.coe_mul, ← coe_sum]
  refine congrArg _ ?_
  simp only [Finset.mul_sum, Finset.sum_mul]
  rw [Finset.sum_comm]
  exact Finset.sum_congr rfl fun j _ => Finset.sum_congr rfl fun k _ => by ring

/-- For arrays of real numbers the two groupings agree. -/
theorem layer_eq_layerRef (A : SA.Idx → EReal) (X : SX.Idx → EReal) (W : SW.Idx → EReal)
    (hA : ∀ i, ∃ r : ℝ, A i = r) (hX : ∀ i, ∃ r : ℝ, X i = r) (hW : ∀ i, ∃ r : ℝ, W i = r) :
    layer A X W = layerRef A X W := by
  choose a ha using hA
  choose x hx using hX
  choose w hw using hW
  funext i
  unfold layer layerRef xwAt
  simp only [ha, hx, hw]
  exact regroup (fun k => a (ix2 (i 0) k)) (fun k j => x (ix2 k j)) (fun j => w (ix2 j (i 1)))

end Cert.Gcn

end
-- ==== Proof.KI.Value.lean ====
/-
  The idealized kernel's result array, read at the extended reals.
  At each grid point the result's staging buffer is written in two halves: rows 0–199 hold the product of the
  point's first 200 rows of `A` with the scratch, rows 200–399 that of the next 200 rows. The scratch holds
  `X · W` — formed once, at the first point, from the whole of `X` and `W`. Point `t`'s block of `A` in the
  first window starts at row `400 t`, in the second at row `400 t + 200`, and the result's block at row `400 t`:
  so what point `t` writes back is block `t` of ONE function of the arrays, entry (r, b) the sum over k of
  A(r, k) · (X · W)(k, b), and the 25 blocks cover the array.
-/
import proofs.«127652_g52682068853352_cont_sun_m_837_9_alg».proof.Proof.KI.Frame
import proofs.«127652_g52682068853352_cont_sun_m_837_9_alg».proof.Proof.LibDot
import proofs.«127652_g52682068853352_cont_sun_m_837_9_alg».proof.Proof.GcnLaw
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

local notation "𝕀" => Idealize.ShloMosaic.Ideal

variable (m : (ℓ : Loc nD τ sig) → Buf (Elt 𝕀) ℓ) (ρ : Dev nD → PrngReg)

theorem hz2 : (![0, 0] : Fin 2 → Nat) = fun _ => 0 := funext fun a => by fin_cases a <;> rfl

/-! ## The body's three products, entry by entry -/

theorem dotXW_plain : Cert.LibDot.IsPlain (M := 10000) (K := 128) (N := 128) dot_S10000x128_S128x128_S10000x128_1_0_0_1_n_n :=
  ⟨rfl, rfl, rfl, rfl, rfl, rfl⟩
theorem dotA_plain : Cert.LibDot.IsPlain (M := 200) (K := 10000) (N := 128) dot_S200x10000_S10000x128_S200x128_1_0_0_1_n_n :=
  ⟨rfl, rfl, rfl, rfl, rfl, rfl⟩

/-- What the first point stores into the scratch: entry (k, b) of `X · W` (the rounding to bf16 is the identity here). -/
theorem pay1_apply (v13 : Vec 𝕀 S10000x128 .f32) (v14 : Vec 𝕀 S128x128 .f32) (k : Fin 10000) (b : Fin 128) :
    k0_pay1 (F := 𝕀) v13 v14 (ix2 k b) = ∑ j : Fin 128, v13 (ix2 k j) * v14 (ix2 j b) := by
  unfold k0_pay1
  refine (congrFun (shapeCast_self _ _) (ix2 k b)).trans ?_
  exact Cert.LibDot.matmul_zero_apply (M := 10000) (K := 128) (N := 128) (φ₁ := .f32) (φ₂ := .f32) _ dotXW_plain none v13 v14 k b

/-- The first half of the result block: rows of `A` times the scratch. -/
theorem pay2_apply (v3 : Vec 𝕀 S200x10000 .f32) (v5 : Vec 𝕀 S10000x128 .bf16) (a : Fin 200) (b : Fin 128) :
    k0_pay2 (F := 𝕀) v3 v5 (ix2 a b) = ∑ k : Fin 10000, v3 (ix2 a k) * v5 (ix2 k b) := by
  unfold k0_pay2
  exact Cert.LibDot.matmul_zero_apply (M := 200) (K := 10000) (N := 128) (φ₁ := .bf16) (φ₂ := .bf16) _ dotA_plain none (truncf .bf16 v3 bitsLt_bf16_f32) v5 a b

/-- The second half likewise. -/
theorem pay3_apply (v8 : Vec 𝕀 S200x10000 .f32) (v10 : Vec 𝕀 S10000x128 .bf16) (a : Fin 200) (b : Fin 128) :
    k0_pay3 (F := 𝕀) v8 v10 (ix2 a b) = ∑ k : Fin 10000, v8 (ix2 a k) * v10 (ix2 k b) := by
  unfold k0_pay3
  exact Cert.LibDot.matmul_zero_apply (M := 200) (K := 10000) (N := 128) (φ₁ := .bf16) (φ₂ := .bf16) _ dotA_plain none (truncf .bf16 v8 bitsLt_bf16_f32) v10 a b

/-! ## What the runs found, named -/

/-- The two rectangles of the result's staging buffer the body stores through. -/
abbrev Rlo : Rect S400x128 := Rect.unit (s := S400x128) ![0, 0] S200x128.size inb_S400x128_S200x128_0_0
abbrev Rhi : Rect S400x128 := Rect.unit (s := S400x128) ![200, 0] S200x128.size inb_S400x128_S200x128_200_0

/-- The scratch after the first point is the stored product. -/
theorem scratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec 𝕀 S10000x128 .f32) (x1 : Vec 𝕀 S128x128 .f32) (x2 : Vec 𝕀 S200x10000 .f32) (x3 : Vec 𝕀 S200x10000 .f32) :
    sout0_A_0 (F := 𝕀) c i arg1 harg1 arg2 harg2 arg3 harg3 arg4 harg4 arg5 harg5 arg6 harg6 hc0 x0 x1 x2 x3 = k0_pay1 x0 x1 := by
  unfold sout0_A_0
  rw [View.read_writes_junk_eq_canon]
  unfold kernelRun0_A
  dsimp only
  sl_unfold_words
  rw [View.canon_unit_zero hz2]
  simp only [View.readAt_eq_ld, harg1.read_unread, harg2.read_unread, View.ld_unit_zero (S := S10000x128) hz2, View.ld_unit_zero (S := S128x128) hz2]

/-- The result's buffer after the first point: the two halves, each over the product just stored. -/
theorem out_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec 𝕀 S10000x128 .f32) (x1 : Vec 𝕀 S128x128 .f32) (x2 : Vec 𝕀 S200x10000 .f32) (x3 : Vec 𝕀 S200x10000 .f32) :
    out0_A_4 (F := 𝕀) c i arg1 harg1 arg2 harg2 arg3 harg3 arg4 harg4 arg5 harg5 arg6 harg6 hc0 x0 x1 x2 x3
      = View.canon [⟨Rhi, k0_pay3 x3 (k0_pay1 x0 x1)⟩, ⟨Rlo, k0_pay2 x2 (k0_pay1 x0 x1)⟩] := by
  unfold out0_A_4
  rw [View.read_writes_junk_eq_canon]
  unfold kernelRun0_A
  dsimp only
  sl_unfold_words
  rw [View.readCov_unit_zero _ hz2]
  simp only [View.readAt_eq_ld, harg1.read_unread, harg2.read_unread, harg3.read_unread, harg4.read_unread,
    View.ld_unit_zero (S := S10000x128) hz2, View.ld_unit_zero (S := S128x128) hz2, View.ld_unit_zero (S := S200x10000) hz2]

/-- After a later point: the two halves over the scratch as found. -/
theorem out_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec 𝕀 S10000x128 .f32) (x1 : Vec 𝕀 S128x128 .f32) (x2 : Vec 𝕀 S200x10000 .f32) (x3 : Vec 𝕀 S200x10000 .f32)
    (xs0 : Vec 𝕀 S10000x128 .bf16) :
    out0_B_4 (F := 𝕀) c i arg1 harg1 arg2 harg2 arg3 harg3 arg4 harg4 arg5 harg5 arg6 harg6 hc0 x0 x1 x2 x3 xs0
      = View.canon [⟨Rhi, k0_pay3 x3 xs0⟩, ⟨Rlo, k0_pay2 x2 xs0⟩] := by
  unfold out0_B_4
  rw [View.read_writes_junk_eq_canon]
  unfold kernelRun0_B
  dsimp only
  simp only [View.readAt_eq_ld, harg3.read_unread, harg4.read_unread, harg6.read_unread,
    View.ld_unit_zero (S := S10000x128) hz2, View.ld_unit_zero (S := S200x10000) hz2]

/-- Two stores through disjoint rectangles: under the earlier one, its payload; -/
theorem canon_pair_snd {S : Shape} {e : EltTy} (R1 R2 : Rect S) (w1 : R1.shape.Idx → Elt 𝕀 e) (w2 : R2.shape.Idx → Elt 𝕀 e)
    (x : R2.shape.Idx) (h : R2.emb x ∉ R1.set) :
    View.canon (Val := Elt 𝕀) [⟨R1, w1⟩, ⟨R2, w2⟩] (R2.emb x) = w2 x := by
  rw [View.canon_cons_of_not_mem _ _ h]
  exact View.canon_cons_emb R2 w2 [] x

/-- under the later one, its payload. -/
theorem canon_pair_fst {S : Shape} {e : EltTy} (R1 R2 : Rect S) (w1 : R1.shape.Idx → Elt 𝕀 e) (w2 : R2.shape.Idx → Elt 𝕀 e)
    (x : R1.shape.Idx) :
    View.canon (Val := Elt 𝕀) [⟨R1, w1⟩, ⟨R2, w2⟩] (R1.emb x) = w1 x :=
  View.canon_cons_emb R1 w1 _ x

/-- Row `a` of the first store sits at row `a` of the buffer, -/
theorem lo_emb (a : Fin 200) (b : Fin 128) :
    (ix2 (⟨a.val, by omega⟩ : Fin 400) b : S400x128.Idx) = Rlo.emb (ix2 a b : S200x128.Idx) :=
  funext fun d => Fin.ext (by
    match d with
    | ⟨0, _⟩ => show a.val = 0 + 1 * a.val; omega
    | ⟨1, _⟩ => show b.val = 0 + 1 * b.val; omega)

/-- row `a` of the second at row `200 + a`, -/
theorem hi_emb (a : Fin 200) (b : Fin 128) :
    (ix2 (⟨200 + a.val, by omega⟩ : Fin 400) b : S400x128.Idx) = Rhi.emb (ix2 a b : S200x128.Idx) :=
  funext fun d => Fin.ext (by
    match d with
    | ⟨0, _⟩ => show 200 + a.val = 200 + 1 * a.val; omega
    | ⟨1, _⟩ => show b.val = 0 + 1 * b.val; omega)

/-- and the first store's rows are not among the second's. -/
theorem lo_not_hi (x : S200x128.Idx) : Rlo.emb x ∉ (Rhi : Rect S400x128).set := by
  rw [Rect.mem_set_unit]
  intro h
  have h0 := (h 0).1
  have e : ((Rlo.emb x) 0 : Nat) = 0 + 1 * (x 0 : Nat) := rfl
  have hx : (x 0 : Nat) < 200 := (x 0).isLt
  have h0' : 200 ≤ ((Rlo.emb x) 0 : Nat) := h0
  omega

/-- The two halves read at an entry: row `a` below 200 is the first store's row `a`, -/
theorem halves_lo (whi wlo : S200x128.Idx → Elt 𝕀 .f32) (a : Fin 200) (b : Fin 128) :
    View.canon (Val := Elt 𝕀) (s := S400x128) (e := .f32) [⟨Rhi, whi⟩, ⟨Rlo, wlo⟩] (ix2 (⟨a.val, by omega⟩ : Fin 400) b) = wlo (ix2 a b) := by
  rw [lo_emb]
  exact canon_pair_snd (e := .f32) Rhi Rlo whi wlo (ix2 a b) (lo_not_hi _)

/-- and row `200 + a` is the second store's row `a`. -/
theorem halves_hi (whi wlo : S200x128.Idx → Elt 𝕀 .f32) (a : Fin 200) (b : Fin 128) :
    View.canon (Val := Elt 𝕀) (s := S400x128) (e := .f32) [⟨Rhi, whi⟩, ⟨Rlo, wlo⟩] (ix2 (⟨200 + a.val, by omega⟩ : Fin 400) b) = whi (ix2 a b) := by
  rw [hi_emb]
  exact canon_pair_fst (e := .f32) Rhi Rlo whi wlo (ix2 a b)

/-! ## The windows' blocks, read off the arrays -/

/-- The printed index maps over the grid: `X` and `W` whole at every point; the two windows on `A` at row blocks
    `2 t` and `2 t + 1` (of 200 rows); the result's at row block `t` (of 400 rows). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

theorem iblk0_apply (c : Dev nD) (t : Fin cfg0.N) (k : Fin 10000) (j : Fin 128) :
    iblk (F := 𝕀) m c 0 t (ix2 k j) = m ((c : Thread nD τ).loc main_arg1) (ix2 k j) := by
  obtain ⟨e0, e1, -⟩ := idx_facts t
  show V m c main_arg1 (((cfg0.win 0).blk t).view.emb (ix2 k j)) = V m c main_arg1 (ix2 k j)
  refine congrArg _ (funext fun d => Fin.ext ?_)
  match d with
  | ⟨0, _⟩ => show win0_0.index t (0 : Fin 2) * 10000 + 1 * k.val = k.val; omega
  | ⟨1, _⟩ => show win0_0.index t (1 : Fin 2) * 128 + 1 * j.val = j.val; omega

theorem iblk1_apply (c : Dev nD) (t : Fin cfg0.N) (j : Fin 128) (b : Fin 128) :
    iblk (F := 𝕀) m c 1 t (ix2 j b) = m ((c : Thread nD τ).loc main_arg2) (ix2 j b) := by
  obtain ⟨-, -, e0, e1, -⟩ := idx_facts t
  show V m c main_arg2 (((cfg0.win 1).blk t).view.emb (ix2 j b)) = V m c main_arg2 (ix2 j b)
  refine congrArg _ (funext fun d => Fin.ext ?_)
  match d with
  | ⟨0, _⟩ => show win0_1.index t (0 : Fin 2) * 128 + 1 * j.val = j.val; omega
  | ⟨1, _⟩ => show win0_1.index t (1 : Fin 2) * 128 + 1 * b.val = b.val; omega

theorem iblk2_apply (c : Dev nD) (t : Fin cfg0.N) (a : Fin 200) (k : Fin 10000) :
    iblk (F := 𝕀) m c 2 t (ix2 a k)
      = m ((c : Thread nD τ).loc main_arg0) (ix2 (⟨400 * t.val + a.val, by have := t.isLt; have := cfg0_N; omega⟩ : Fin 10000) k) := by
  obtain ⟨-, -, -, -, e0, e1, -⟩ := idx_facts t
  show V m c main_arg0 (((cfg0.win 2).blk t).view.emb (ix2 a k)) = V m c main_arg0 _
  refine congrArg _ (funext fun d => Fin.ext ?_)
  match d with
  | ⟨0, _⟩ => show win0_2.index t (0 : Fin 2) * 200 + 1 * a.val = 400 * t.val + a.val; omega
  | ⟨1, _⟩ => show win0_2.index t (1 : Fin 2) * 10000 + 1 * k.val = k.val; omega

theorem iblk3_apply (c : Dev nD) (t : Fin cfg0.N) (a : Fin 200) (k : Fin 10000) :
    iblk (F := 𝕀) m c 3 t (ix2 a k)
      = m ((c : Thread nD τ).loc main_arg0) (ix2 (⟨400 * t.val + (200 + a.val), by have := t.isLt; have := cfg0_N; omega⟩ : Fin 10000) k) := by
  obtain ⟨-, -, -, -, -, -, e0, e1, -⟩ := idx_facts t
  show V m c main_arg0 (((cfg0.win 3).blk t).view.emb (ix2 a k)) = V m c main_arg0 _
  refine congrArg _ (funext fun d => Fin.ext ?_)
  match d with
  | ⟨0, _⟩ => show win0_3.index t (0 : Fin 2) * 200 + 1 * a.val = 400 * t.val + (200 + a.val); omega
  | ⟨1, _⟩ => show win0_3.index t (1 : Fin 2) * 10000 + 1 * k.val = k.val; omega

/-! ## The scratch and the result block, as functions of the arrays -/

/-- The layer's value on core `c`, from the arrays as launched. -/
abbrev G (c : Dev nD) : S10000x128.Idx → 𝕀 .f32 :=
  Cert.Gcn.layer (m ((c : Thread nD τ).loc main_arg0)) (m ((c : Thread nD τ).loc main_arg1)) (m ((c : Thread nD τ).loc main_arg2))

/-- The scratch from the first point on holds `X · W`. -/
theorem xw_apply (c : Dev nD) (k : Fin 10000) (b : Fin 128) :
    xw (F := 𝕀) m c (ix2 k b)
      = Cert.Gcn.xwAt (m ((c : Thread nD τ).loc main_arg1)) (m ((c : Thread nD τ).loc main_arg2)) k b := by
  unfold xw
  rw [scratch_first, pay1_apply]
  unfold Cert.Gcn.xwAt
  exact Finset.sum_congr rfl fun j _ => by rw [iblk0_apply, iblk1_apply]

/-- The product a point stores is over `X · W` whichever point it is: at the first, the product it has just formed. -/
theorem first_apply (c : Dev nD) (k : Fin 10000) (b : Fin 128) :
    k0_pay1 (F := 𝕀) (iblk m c 0 t0) (iblk m c 1 t0) (ix2 k b)
      = Cert.Gcn.xwAt (m ((c : Thread nD τ).loc main_arg1)) (m ((c : Thread nD τ).loc main_arg2)) k b := by
  rw [pay1_apply]
  unfold Cert.Gcn.xwAt
  exact Finset.sum_congr rfl fun j _ => by rw [iblk0_apply, iblk1_apply]

/-- Row `p` of the result's buffer after point `t` is row `400 t + p` of the layer. -/
theorem out4_apply (c : Dev nD) (t : Fin cfg0.N) (p : Fin 400) (q : Fin 128) :
    out4 (F := 𝕀) m c t (ix2 p q)
      = G m c (ix2 (⟨400 * t.val + p.val, by have := t.isLt; have := cfg0_N; omega⟩ : Fin 10000) q) := by
  have hN : t.val < 25 := lt_of_lt_of_eq t.isLt cfg0_N
  -- the two halves over SOME scratch contents that read `X · W`
  have key : ∀ xs : Vec 𝕀 S10000x128 .bf16,
      (∀ k b, xs (ix2 k b) = Cert.Gcn.xwAt (m ((c : Thread nD τ).loc main_arg1)) (m ((c : Thread nD τ).loc main_arg2)) k b) →
      View.canon (Val := Elt 𝕀) (s := S400x128) (e := .f32) [⟨Rhi, k0_pay3 (iblk m c 3 t) xs⟩, ⟨Rlo, k0_pay2 (iblk m c 2 t) xs⟩] (ix2 p q)
        = G m c (ix2 (⟨400 * t.val + p.val, by omega⟩ : Fin 10000) q) := by
    intro xs hxs
    by_cases hp : p.val < 200
    · obtain ⟨a, rfl⟩ : ∃ a : Fin 200, p = ⟨a.val, Nat.lt_of_lt_of_le a.isLt (by decide)⟩ := ⟨⟨p.val, hp⟩, rfl⟩
      rw [halves_lo, pay2_apply]
      exact Finset.sum_congr rfl fun k _ => by rw [iblk2_apply, hxs]
    · have hp' : p.val - 200 < 200 := by have := p.isLt; omega
      obtain ⟨a, rfl⟩ : ∃ a : Fin 200, p = ⟨200 + a.val, Nat.add_lt_add_left a.isLt 200⟩ :=
        ⟨⟨p.val - 200, hp'⟩, Fin.ext (by show p.val = 200 + (p.val - 200); omega)⟩
      rw [halves_hi, pay3_apply]
      exact Finset.sum_congr rfl fun k _ => by rw [iblk3_apply, hxs]
  unfold out4
  by_cases h : t.val % 25 = 0
  · have hz : t.val = 0 := by omega
    obtain rfl : t = t0 := Fin.ext hz
    rw [dif_pos h, out_first]
    exact key _ (first_apply m c)
  · rw [dif_neg h, out_later]
    exact key _ (xw_apply m c)

/-! ## From blocks to the array -/

/-- What point `t` writes back is block `t` of the layer. -/
theorem flushed4_eq (c : Dev nD) (t : Fin cfg0.N) :
    (dats m 0 c).flushed 4 t = ((cfg0.win 4).blk t).view.read (Elt 𝕀) (G m c) := by
  show (cfg0.win 4).cut (grid0.coords t) ((dats m 0 c).after 4 t) = _
  rw [after0_4]
  obtain ⟨-, -, -, -, -, -, -, -, e0, e1⟩ := idx_facts t
  funext j
  obtain ⟨p, q, rfl⟩ : ∃ (p : Fin 400) (q : Fin 128), j = ix2 p q := ⟨j 0, j 1, eq_ix2 j⟩
  show out4 m c t (ix2 p q) = G m c (((cfg0.win 4).blk t).view.emb (ix2 p q))
  rw [out4_apply]
  refine congrArg _ (funext fun d => Fin.ext ?_)
  match d with
  | ⟨0, _⟩ => show 400 * t.val + p.val = win0_4.index t (0 : Fin 2) * 400 + 1 * p.val; omega
  | ⟨1, _⟩ => show q.val = win0_4.index t (1 : Fin 2) * 128 + 1 * q.val; omega

theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every row of the result lies in the block of the point `row / 400`. -/
theorem cover4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  refine ⟨⟨(i 0).val / 400, by rw [cfg0_N]; omega⟩, flush0_4 _, ?_⟩
  obtain ⟨-, -, -, -, -, -, -, -, e0, e1⟩ := idx_facts ⟨(i 0).val / 400, by rw [cfg0_N]; omega⟩
  rw [mem_blk4]
  intro a
  match a with
  | ⟨0, _⟩ => show win0_4.index _ (0 : Fin 2) * 400 ≤ (i 0).val ∧ (i 0).val < win0_4.index _ (0 : Fin 2) * 400 + 400; rw [e0]; show (i 0).val / 400 * 400 ≤ _ ∧ _ < (i 0).val / 400 * 400 + 400; omega
  | ⟨1, _⟩ => show win0_4.index _ (1 : Fin 2) * 128 ≤ (i 1).val ∧ (i 1).val < win0_4.index _ (1 : Fin 2) * 128 + 128; rw [e1]; omega

/-- The result array after the run is the layer. -/
theorem final4 (c : Dev nD) : (dats m 0 c).arrAt 4 cfg0.N = G m c :=
  (dats m 0 c).arrAt_eq_of_cover 4 (G m c) (fun t _ => flushed4_eq m c t) cover4

/-! ## The run, read -/

/-- Every weakly fair execution of the idealized kernel terminates with the result array at the layer's value and
    the three arguments unchanged. -/
theorem run : θ_run defs (onTc (τ := τ) (main (F := 𝕀))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c) 4).trans (final4 m c),
      ((h c) 2).trans (((dats m 0 c).arrAt_in 2 rfl _).trans (A_eq m c 2)),
      ((h c) 0).trans (((dats m 0 c).arrAt_in 0 rfl _).trans (A_eq m c 0)),
      ((h c) 1).trans (((dats m 0 c).arrAt_in 1 rfl _).trans (A_eq m c 1))⟩)
    (run_main m ρ)

end Cert.KernelIdeal.Hand

end
-- ==== Proof.RefValue.lean ====
/-
  The idealized reference, read at the extended reals: its two general dot products, composed, are the layer in
  the grouping `(A · X) · W`.
-/
import proofs.«127652_g52682068853352_cont_sun_m_837_9_alg».proof.Proof.Gen.ReferenceIdeal.Read
import proofs.«127652_g52682068853352_cont_sun_m_837_9_alg».proof.Proof.GcnLaw

noncomputable section

open scoped BigOperators

namespace Cert.ReferenceIdeal.RefValue

open Cert.ReferenceIdeal Cert.ReferenceIdeal.Read Idealize.ShloMosaic Idealize.ShloMosaic.ValueIdx

local notation "𝕀" => Idealize.ShloMosaic.Ideal

/-- The reference's result, entry (a, b): the sum over j of (the sum over k of A(a, k) · X(k, j)) · W(j, b). -/
theorem ref_eq (A : (⟨S10000x10000, .f32⟩ : BufTy).Contents (Elt 𝕀)) (X : (⟨S10000x128, .f32⟩ : BufTy).Contents (Elt 𝕀))
    (W : (⟨S128x128, .f32⟩ : BufTy).Contents (Elt 𝕀)) :
    val_main_v1 (F := 𝕀) A X W = Cert.Gcn.layerRef A X W := by
  funext i
  rw [val_main_v1_apply]
  unfold Cert.Gcn.layerRef
  refine Finset.sum_congr rfl fun j _ => ?_
  rw [val_main_v0_apply]
  have e1 : ∀ k : Fin 10000, lidx_main_v0 (lidx_main_v1 i j) k = ix2 (i 0) k := fun k =>
    funext fun a => Fin.ext (by match a with | ⟨0, _⟩ => rfl | ⟨1, _⟩ => rfl)
  have e2 : ∀ k : Fin 10000, ridx_main_v0 (lidx_main_v1 i j) k = ix2 k j := fun k =>
    funext fun a => Fin.ext (by match a with | ⟨0, _⟩ => rfl | ⟨1, _⟩ => rfl)
  have e3 : ridx_main_v1 i j = ix2 j (i 1) :=
    funext fun a => Fin.ext (by match a with | ⟨0, _⟩ => rfl | ⟨1, _⟩ => rfl)
  simp only [e1, e2, e3]
  rfl

end Cert.ReferenceIdeal.RefValue

end
-- ==== Proof.GcnFinite.lean ====
/-
  The precondition read back: `finite_inputs` says of each of the three arrays that the absolute value of every
  entry is below +inf; on the extended reals such an entry is a real number.
-/
import proofs.«127652_g52682068853352_cont_sun_m_837_9_alg».proof.Pre_finite_inputs
import proofs.«127652_g52682068853352_cont_sun_m_837_9_alg».proof.Proof.Gen.Pre_finite_inputs
import Idealize.ShloMosaic.Lib.ReduceAll
import Idealize.ShloMosaic.Lib.ValueIdx
import Idealize.ShloMosaic.PureOps.Ideal.Laws

noncomputable section

namespace Cert.Gcn

open Idealize.ShloMosaic Cert.Pre_finite_inputs Cert.Pre_finite_inputs.Gen

local notation "𝕀" => Idealize.ShloMosaic.Ideal

instance : Subsingleton Cert.Pre_finite_inputs.S_.Idx := ⟨fun a b => funext fun d => d.elim0⟩

/-- An extended real whose absolute value is below +inf is a real number. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- Under `finite_inputs` every entry of the three arrays is a real number. -/
theorem finite_of_pre (A : FVec 𝕀 S10000x10000 .f32) (X : FVec 𝕀 S10000x128 .f32) (W : FVec 𝕀 S128x128 .f32)
    (h : Cert.Pre_finite_inputs.fn (F := 𝕀) A X W = fun _ => 1#1) :
    (∀ i, ∃ r : ℝ, A i = r) ∧ (∀ i, ∃ r : ℝ, X i = r) ∧ (∀ i, ∃ r : ℝ, W i = r) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  refine ⟨fun i => ?_, fun i => ?_, fun i => ?_⟩
  · exact real_of_abs_lt_inf (A i) (Host.reduce_andi_all _ _ _ _ _ h0' i)
  · exact real_of_abs_lt_inf (X i) (Host.reduce_andi_all _ _ _ _ _ h1 i)
  · exact real_of_abs_lt_inf (W i) (Host.reduce_andi_all _ _ _ _ _ h2 i)

end Cert.Gcn

end
-- ==== Proof.lean ====
/-
  The certificate of the graph-convolution layer `A_hat · X · W`.
  The kernel computes `A_hat · (X · W)`: at the first of its 25 grid points it forms `X · W` once and keeps it in a
  scratch buffer; at every point it multiplies the point's 400 rows of `A_hat` — handed to it as two windows of 200
  rows on the one array — by the kept product, and the pipeline writes the 400 result rows back. The reference
  computes `(A_hat · X) · W`. On the extended reals, where a change of float format is the identity, both are the
  double sum over k and j of `A_hat(a, k) · X(k, j) · W(j, b)`; regrouping it is distributivity, which holds because
  the precondition makes every entry a real number.
  The frames of the two kernel programs are the run of the region (each window's staging buffer accounted for at
  every point, `A_hat`'s share split between its two windows); the reference's frame is its run with the result
  dropped; the idealization rewrote nothing, so `preserves` is trivial.
-/
import proofs.«127652_g52682068853352_cont_sun_m_837_9_alg».proof.Defs
import proofs.«127652_g52682068853352_cont_sun_m_837_9_alg».proof.Proof.Gen.Kernel
import proofs.«127652_g52682068853352_cont_sun_m_837_9_alg».proof.Proof.Gen.KernelIdeal
import proofs.«127652_g52682068853352_cont_sun_m_837_9_alg».proof.Proof.Gen.ReferenceIdeal
import proofs.«127652_g52682068853352_cont_sun_m_837_9_alg».proof.Proof.Gen.Pre_finite_inputs
import proofs.«127652_g52682068853352_cont_sun_m_837_9_alg».proof.Proof.Gen.ReferenceIdeal.Run
import proofs.«127652_g52682068853352_cont_sun_m_837_9_alg».proof.Proof.Gen.ReferenceIdeal.Read
import proofs.«127652_g52682068853352_cont_sun_m_837_9_alg».proof.Proof.K.Frame
import proofs.«127652_g52682068853352_cont_sun_m_837_9_alg».proof.Proof.KI.Value
import proofs.«127652_g52682068853352_cont_sun_m_837_9_alg».proof.Proof.RefValue
import proofs.«127652_g52682068853352_cont_sun_m_837_9_alg».proof.Proof.GcnFinite
import proofs.«127652_g52682068853352_cont_sun_m_837_9_alg».proof.Proof.GcnLaw
import Idealize.ShloMosaic.Adequacy
import Idealize.ShloMosaic.Init

noncomputable section

namespace Cert.Proof

open Idealize.ShloMosaic Idealize.ShloMosaic.TcCoe Idealize.SL.Sem

local notation "𝕀" => Idealize.ShloMosaic.Ideal

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := 𝕀) m ρ)

/-- Both idealized programs end with the layer's value: the kernel's array is `A · (X · W)` block by block, the
    reference's `(A · X) · W`, and for real entries the two groupings agree. -/
theorem algebraic : Cert.algebraic_KernelIdeal_ReferenceIdeal := by
  intro m ρ m' ρ' hpre hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := 𝕀) m' ρ')
  rw [Cert.ReferenceIdeal.Read.val_main_v1_eq, Cert.ReferenceIdeal.RefValue.ref_eq, (hagree c).1, (hagree c).2.1, (hagree c).2.2]
  obtain ⟨hA, hX, hW⟩ := Cert.Gcn.finite_of_pre _ _ _ (hpre c)
  exact (Cert.Gcn.layer_eq_layerRef _ _ _ hA hX hW).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
